-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x1 : Shape := ⟨2, ![50000, 1]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x1 : S_.BroadcastsInDim S50000x1 (![] : Fin 0 → Fin S50000x1.rank)
  reducesTo_S50000x1_S_d0_1 : S50000x1.ReducesTo [0, 1] S_
  bcast_S_S640000 : S_.BroadcastsInDim S640000 (![] : Fin 0 → Fin S640000.rank)
  reducesTo_S640000_S_d0 : S640000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : FVec F S50000x1 .f32) (main_arg2 : IVec S640000 32) (main_arg3 : IVec S640000 32) (main_arg4 : FVec F S640000 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x1 .f32 := Host.absf main_arg1
  let main_cst_0 : FVec F S_ .f32 := constant S_ .f32 0x7F800000#32
  let main_v5 : FVec F S50000x1 .f32 := broadcastInDim S50000x1 ![] bcast_S_S50000x1 main_cst_0
  let main_v6 : IVec S50000x1 1 := cmpf .olt main_v4 main_v5
  let main_c_1 : IVec S_ 1 := constantI S_ 1 1#1
  let main_v7 : IVec S_ 1 := (fun x v => Host.reduce IntOp.andi x v reducesTo_S50000x1_S_d0_1 h_S_) main_v6 main_c_1
  let main_v8 : IVec S_ 1 := andi main_v3 main_v7
  let main_v9 : FVec F S640000 .f32 := Host.absf main_arg4
  let main_cst_2 : FVec F S_ .f32 := constant S_ .f32 0x7F800000#32
  let main_v10 : FVec F S640000 .f32 := broadcastInDim S640000 ![] bcast_S_S640000 main_cst_2
  let main_v11 : IVec S640000 1 := cmpf .olt main_v9 main_v10
  let main_c_3 : IVec S_ 1 := constantI S_ 1 1#1
  let main_v12 : IVec S_ 1 := (fun x v => Host.reduce IntOp.andi x v reducesTo_S640000_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S50000x128 : Shape := ⟨2, ![50000, 128]⟩
abbrev S50000x1 : Shape := ⟨2, ![50000, 1]⟩
abbrev S640000 : Shape := ⟨1, ![640000]⟩
abbrev S128x128 : Shape := ⟨2, ![128, 128]⟩
abbrev S128 : Shape := ⟨1, ![128]⟩
abbrev S5000x128 : Shape := ⟨2, ![5000, 128]⟩
abbrev S1x128 : Shape := ⟨2, ![1, 128]⟩
abbrev S640000x1 : Shape := ⟨2, ![640000, 1]⟩
abbrev S_ : Shape := ⟨0, ![]⟩
abbrev S640000x128 : Shape := ⟨2, ![640000, 128]⟩
abbrev S50000 : Shape := ⟨1, ![50000]⟩
abbrev S5000x1 : Shape := ⟨2, ![5000, 1]⟩

abbrev nBuf : Space → Nat
  | .hbm => 33
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S50000x1, .f32⟩
  | .hbm, ⟨2, _⟩ => ⟨S640000, .i32⟩
  | .hbm, ⟨3, _⟩ => ⟨S640000, .i32⟩
  | .hbm, ⟨4, _⟩ => ⟨S640000, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S50000x128, .f32⟩
  | .hbm, ⟨9, _⟩ => ⟨S640000x1, .f32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x128, .f32⟩
  | .hbm, ⟨19, _⟩ => ⟨S640000x128, .f32⟩
  | .hbm, ⟨20, _⟩ => ⟨S640000x128, .f32⟩
  | .hbm, ⟨21, _⟩ => ⟨S_, .f32⟩
  | .hbm, ⟨22, _⟩ => ⟨S50000x128, .f32⟩
  | .hbm, ⟨23, _⟩ => ⟨S640000x1, .i32⟩
  | .hbm, ⟨24, _⟩ => ⟨S50000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S50000, .f32⟩
  | .hbm, ⟨29, _⟩ => ⟨S640000x1, .i32⟩
  | .hbm, ⟨30, _⟩ => ⟨S50000, .f32⟩
  | .hbm, ⟨31, _⟩ => ⟨S50000x1, .f32⟩
  | .hbm, ⟨32, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S5000x1, .f32⟩
  | .local _ .vmem, ⟨11, _⟩ => ⟨S5000x1, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x128_S5000x128 : S5000x128.ShapeCasts S5000x128
  broadcasts_S5000x1_S5000x128 : S5000x1.Broadcasts S5000x128
  dot_S5000x128_S128x128_S5000x128_1_0_0_1_n_n_wf : DotDims.WF S5000x128 S128x128 S5000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S5000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v20) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x1 : Shape := ⟨2, ![50000, 1]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S50000 : Shape := ⟨1, ![50000]⟩

abbrev nBuf : Space → Nat
  | .hbm => 46
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x1, .f32⟩
  | .hbm, ⟨2, _⟩ => ⟨S640000, .i32⟩
  | .hbm, ⟨3, _⟩ => ⟨S640000, .i32⟩
  | .hbm, ⟨4, _⟩ => ⟨S640000, .f32⟩
  | .hbm, ⟨5, _⟩ => ⟨S128x128, .f32⟩
  | .hbm, ⟨6, _⟩ => ⟨S128, .f32⟩
  | .hbm, ⟨7, _⟩ => ⟨S50000x128, .f32⟩
  | .hbm, ⟨8, _⟩ => ⟨S50000x128, .f32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S640000x1, .f32⟩
  | .hbm, ⟨19, _⟩ => ⟨S128x128, .f32⟩
  | .hbm, ⟨20, _⟩ => ⟨S640000x128, .f32⟩
  | .hbm, ⟨21, _⟩ => ⟨S1x128, .f32⟩
  | .hbm, ⟨22, _⟩ => ⟨S640000x128, .f32⟩
  | .hbm, ⟨23, _⟩ => ⟨S640000x128, .f32⟩
  | .hbm, ⟨24, _⟩ => ⟨S640000x128, .f32⟩
  | .hbm, ⟨25, _⟩ => ⟨S640000x128, .f32⟩
  | .hbm, ⟨26, _⟩ => ⟨S_, .f32⟩
  | .hbm, ⟨27, _⟩ => ⟨S50000x128, .f32⟩
  | .hbm, ⟨28, _⟩ => ⟨S640000x1, .i32⟩
  | .hbm, ⟨29, _⟩ => ⟨S50000x128, .f32⟩
  | .hbm, ⟨30, _⟩ => ⟨S_, .f32⟩
  | .hbm, ⟨31, _⟩ => ⟨S640000, .f32⟩
  | .hbm, ⟨32, _⟩ => ⟨S_, .f32⟩
  | .hbm, ⟨33, _⟩ => ⟨S50000, .f32⟩
  | .hbm, ⟨34, _⟩ => ⟨S640000x1, .i32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000x128, .f32⟩
  | .hbm, ⟨44, _⟩ => ⟨S50000x128, .f32⟩
  | .hbm, ⟨45, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call0_cst : Ref sig .tc := ⟨.hbm, 42, rfl⟩
abbrev main_call0_v0 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]

class Facts₀ : Prop where
  bcast_S50000x1_S50000x128_0_1 : S50000x1.BroadcastsInDim S50000x128 (![0, 1] : Fin 2 → Fin S50000x128.rank)
  bcast_S_S640000 : S_.BroadcastsInDim S640000 (![] : Fin 0 → Fin S640000.rank)
  bcast_S640000_S640000x1_0 : S640000.BroadcastsInDim S640000x1 (![0] : Fin 1 → Fin S640000x1.rank)
  transposes_S128x128_S128x128_1_0 : S128x128.Transposes [1, 0] S128x128
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  gather_S50000x128_S640000x1_S640000x128_1_0_n_n_0_1_1128_wf : GatherDims.WF S50000x128 S640000x1 S640000x128 [1] [0] [] [0] [] 1 ![1, 128]
  dot_S640000x128_S128x128_S640000x128_1_0_0_1_n_n_wf : DotDims.WF S640000x128 S128x128 S640000x128 [1] [0] [0] [1] [] []
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf

class Facts : Prop extends Facts₀ where

variable [Facts]
-- ==== Proof.KernelRun.lean ====
/-
  The idealized kernel's whole run with its result named.

  The program is two grid regions among stretches of host operations. Every weakly fair execution terminates without a
  fault, the seven argument arrays end as launched, and the result array ends at the contents the last boundary of the
  run assigns to it: what the second region's write-backs leave, the second region having been entered from what the
  host operations after the first region computed from the first region's write-backs.
-/
import proofs.«147208_j14568529068220_2_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of the two regions and the host stretches around them, with the result array read at the last boundary. -/
theorem run_named : θ_run defs (onTc (τ := τ) (main (F := F))) ⟨m, fun _ => 0, ρ⟩ (fun r => ∀ c : Dev nD,
      r.2.mem ((c.tc : Thread nD τ).loc main_v20) = W4 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v20 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Named

end
-- ==== Proof.Spec.lean ====
/-
  The mathematics both programs compute, over the extended reals, stated once with no program in sight.

  A graph layer on N = 50000 nodes with D = 128 features and E = 640000 edges:
    lin  x wt b        : the affine map of every node row,  (x · wt)[r, c] + b[c]
    node s dg al x     : per node row r,  max (s[r, c] / max dg[r] 1) 0 + al[r] · x[r, c]
  and the one fact about the row gather that joins the two programs: result element (e, c) of a gather of rows
  reads the operand at (row e, c), where the row depends on e and the index array only — so gathering rows
  commutes with any map that acts on each row separately.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SNxD : Shape := ⟨2, ![50000, 128]⟩
abbrev SNx1 : Shape := ⟨2, ![50000, 1]⟩
abbrev SN : Shape := ⟨1, ![50000]⟩
abbrev SDxD : Shape := ⟨2, ![128, 128]⟩
abbrev SD : Shape := ⟨1, ![128]⟩
abbrev SExD : Shape := ⟨2, ![640000, 128]⟩
abbrev SEx1 : Shape := ⟨2, ![640000, 1]⟩

/-- The row coordinate of an index of an N × D array, as a number below N. -/
abbrev rowOf (i : SNxD.Idx) : Fin 50000 := ⟨(i 0).val, (i 0).isLt⟩
/-- The column coordinate of an index of an N × D array, as a number below D. -/
abbrev colOf (i : SNxD.Idx) : Fin 128 := ⟨(i 1).val, (i 1).isLt⟩

/-- The affine map of every row: entry (r, c) is the sum over k of x[r, k] · wt[k, c], plus b[c]. -/
def lin (x : FVec Ideal SNxD .f32) (wt : FVec Ideal SDxD .f32) (b : FVec Ideal SD .f32) : FVec Ideal SNxD .f32 :=
  fun i => (∑ k : Fin 128, x (ix2 (rowOf i) k) * wt (ix2 k (colOf i))) + b (ix1 (colOf i))

/-- The node stage with the degree as an N × 1 column: entry (r, c) is
    max (s[r, c] / max dg[r, 0] 1) 0 + al[r, 0] · x[r, c]. -/
def nodeCol (s : FVec Ideal SNxD .f32) (dg : FVec Ideal SNx1 .f32) (al : FVec Ideal SNx1 .f32) (x : FVec Ideal SNxD .f32) :
    FVec Ideal SNxD .f32 :=
  fun i => max (Ideal.div (s i) (max (dg (ix2 (rowOf i) (0 : Fin 1))) (Ideal.ofBits .f32 0x3F800000#32))) (Ideal.ofBits .f32 0x00000000#32)
    + al (ix2 (rowOf i) (0 : Fin 1)) * x i

/-- The node stage with the degree as a vector of length N. -/
def node (s : FVec Ideal SNxD .f32) (dg : FVec Ideal SN .f32) (al : FVec Ideal SNx1 .f32) (x : FVec Ideal SNxD .f32) :
    FVec Ideal SNxD .f32 :=
  fun i => max (Ideal.div (s i) (max (dg (ix1 (rowOf i))) (Ideal.ofBits .f32 0x3F800000#32))) (Ideal.ofBits .f32 0x00000000#32)
    + al (ix2 (rowOf i) (0 : Fin 1)) * x i

/-- The two forms agree when the column is the vector laid out as a column. -/
theorem nodeCol_eq_node (s : FVec Ideal SNxD .f32) (dg2 : FVec Ideal SNx1 .f32) (dg : FVec Ideal SN .f32)
    (al : FVec Ideal SNx1 .f32) (x : FVec Ideal SNxD .f32) (h : ∀ r : Fin 50000, dg2 (ix2 r (0 : Fin 1)) = dg (ix1 r)) :
    nodeCol s dg2 al x = node s dg al x := by
  funext i; unfold nodeCol node; rw [h]

/-! ## Gathering rows -/

/-- The dimension numbers of a gather of whole rows of an N × D array by an E × 1 array of row numbers. -/
abbrev rowGather (wf : GatherDims.WF SNxD SEx1 SExD [1] [0] [] [0] [] 1 ![1, 128]) : GatherDims SNxD SEx1 SExD where
  offsetDims := [1]
  collapsedSliceDims := [0]
  operandBatchingDims := []
  startIndicesBatchingDims := []
  startIndexMap := [0]
  indexVectorDim := 1
  sliceSizes := ![1, 128]
  wf := wf

variable (wf : GatherDims.WF SNxD SEx1 SExD [1] [0] [] [0] [] 1 ![1, 128]) {w : Nat} (idx : IVec SEx1 w)

/-- The row that edge e reads: the first coordinate of the operand index of result element (e, 0). -/
def srcRow (e : Fin 640000) : Fin 50000 :=
  ⟨((rowGather wf).operandIdx (ix2 e (0 : Fin 128)) idx 0).val, ((rowGather wf).operandIdx (ix2 e (0 : Fin 128)) idx 0).isLt⟩

/-- Result element (e, c) reads the operand at (srcRow e, c). -/
theorem operandIdx_eq (e : Fin 640000) (c : Fin 128) :
    (rowGather wf).operandIdx (ix2 e c) idx = ix2 (srcRow wf idx e) c := by
  funext a
  refine Fin.ext ?_
  match a with
  | ⟨0, _⟩ =>
    show (rowGather wf).start (ix2 e c) idx 0 + (rowGather wf).batchCoord (ix2 e c) 0 + (rowGather wf).offCoord (ix2 e c) 0
      = (rowGather wf).start (ix2 e (0 : Fin 128)) idx 0 + (rowGather wf).batchCoord (ix2 e (0 : Fin 128)) 0 + (rowGather wf).offCoord (ix2 e (0 : Fin 128)) 0
    rw [GatherDims.batchCoord_eq_zero _ _ _ List.not_mem_nil, GatherDims.batchCoord_eq_zero _ _ _ List.not_mem_nil,
      GatherDims.offCoord_eq_zero _ _ _ (fun h => ((GatherDims.mem_sKept _ _).mp h).1 (List.mem_singleton.mpr rfl)),
      GatherDims.offCoord_eq_zero _ _ _ (fun h => ((GatherDims.mem_sKept _ _).mp h).1 (List.mem_singleton.mpr rfl))]
    simp only [Nat.add_zero]
    have hsi : ∀ c' : Fin 128, (rowGather wf).siIdx (ix2 e c') ⟨List.idxOf (0 : Fin 2) (rowGather wf).startIndexMap,
        List.idxOf_lt_length_iff.2 (List.mem_singleton.mpr rfl)⟩ = ix2 e (0 : Fin 1) := by
      intro c'
      funext b; refine Fin.ext ?_
      match b with
      | ⟨0, _⟩ => rfl
      | ⟨1, _⟩ => rfl
    have hs : ∀ c' : Fin 128, (rowGather wf).start (ix2 e c') idx 0
        = min (idx (ix2 e (0 : Fin 1))).toInt.toNat (SNxD.size 0 - (rowGather wf).sliceSizes 0) := by
      intro c'
      unfold GatherDims.start
      rw [dif_pos (show (0 : Fin 2) ∈ (rowGather wf).startIndexMap from List.mem_singleton.mpr rfl), hsi c']
    rw [hs c, hs 0]
  | ⟨1, _⟩ =>
    show (rowGather wf).start (ix2 e c) idx 1 + (rowGather wf).batchCoord (ix2 e c) 1 + (rowGather wf).offCoord (ix2 e c) 1 = c.val
    rw [GatherDims.batchCoord_eq_zero _ _ _ List.not_mem_nil]
    unfold GatherDims.start
    rw [dif_neg (show ¬ (1 : Fin 2) ∈ (rowGather wf).startIndexMap from fun h => absurd (List.mem_singleton.mp h) (by decide))]
    simp only [Nat.add_zero, Nat.zero_add]
    rfl

/-- A gather of rows read at (e, c). -/
theorem gather_rows_apply {α : Type} (x : SNxD.Idx → α) (e : Fin 640000) (c : Fin 128) :
    Host.gather (rowGather wf) x idx (ix2 e c) = x (ix2 (srcRow wf idx e) c) := by
  unfold Host.gather; rw [operandIdx_eq]

end Cert.Spec

end
-- ==== Proof.LinRegion.lean ====
/-
  The first grid region's result as one function of the arrays it is entered with.

  The region has ten grid points. Point t reads rows 5000·t … 5000·t + 4999 of the feature array, the whole transposed
  weight matrix and the whole bias vector, and writes back rows 5000·t … 5000·t + 4999 of the result: each written entry
  (r, c) is the sum over k of feature[r, k] · weight[k, c], plus bias[c]. (The body rounds both matrix operands to a
  narrower float format first; over the extended reals a change of format is the identity, and the matrix unit's product
  into a zero accumulator is that plain sum.) The ten blocks tile the 50000 rows, so the result array ends holding the
  affine map of every feature row.
-/
import proofs.«147208_j14568529068220_2_alg».proof.Proof.Gen.KernelIdeal.Frame
import proofs.«147208_j14568529068220_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LinRegion

open Cert.KernelIdeal Cert.KernelIdeal.Gen Idealize.ShloMosaic Idealize.ShloMosaic.ValueIdx Idealize.ShloMosaic.TcCoe
open Idealize.SL.Sem Idealize.ShloMosaic.Pipeline

/-! ## The contraction's operand indices -/

theorem lhs_row (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_col (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs_row (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## What the body stores, entry by entry -/

/-- The matrix product of a block of rows with the weight matrix, read at (p, q): the sum over k of row p's entry k
    times the weight's entry (k, q). -/
theorem product_apply (l : FVec Ideal S5000x128 .bf16) (r : FVec Ideal S128x128 .bf16) (p : Fin 5000) (q : Fin 128) :
    FloatOps.matmul dot_S5000x128_S128x128_S5000x128_1_0_0_1_n_n none l r (constant S5000x128 .f32 0x00000000#32) (ix2 p q)
      = ∑ k : Fin 128, l (ix2 p k) * r (ix2 k q) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The stored value at (p, q): the product's entry plus the bias at q. -/
theorem stored_apply (v0 : Vec Ideal S5000x128 .f32) (v2 : Vec Ideal S128x128 .f32) (v6 : Vec Ideal S128 .f32)
    (p : Fin 5000) (q : Fin 128) :
    Gen.k0_pay1 (F := Ideal) v0 v2 v6 (ix2 p q) = (∑ k : Fin 128, v0 (ix2 p k) * v2 (ix2 k q)) + v6 (ix1 q) := by
  unfold Gen.k0_pay1
  rw [shapeCast_self]
  refine congrArg₂ (· + ·) ?_ ?_
  · exact product_apply _ _ p q
  · exact (broadcastTo_1b_ab_apply _ _ p q).trans (shapeCast_a_1a_apply v6 _ 0 q)

/-- The same at any index of the block. -/
theorem stored_at (v0 : Vec Ideal S5000x128 .f32) (v2 : Vec Ideal S128x128 .f32) (v6 : Vec Ideal S128 .f32) (j : S5000x128.Idx) :
    Gen.k0_pay1 (F := Ideal) v0 v2 v6 j
      = (∑ k : Fin 128, v0 (ix2 (⟨(j 0).val, (j 0).isLt⟩ : Fin 5000) k) * v2 (ix2 k (⟨(j 1).val, (j 1).isLt⟩ : Fin 128)))
        + v6 (ix1 (⟨(j 1).val, (j 1).isLt⟩ : Fin 128)) := by
  have hj : j = ix2 (⟨(j 0).val, (j 0).isLt⟩ : Fin 5000) (⟨(j 1).val, (j 1).isLt⟩ : Fin 128) :=
    funext fun a => by match a with | ⟨0, _⟩ => rfl | ⟨1, _⟩ => rfl
  have h := stored_apply v0 v2 v6 ⟨(j 0).val, (j 0).isLt⟩ ⟨(j 1).val, (j 1).isLt⟩
  rw [← hj] at h
  exact h

/-! ## Where each window's block sits -/

theorem zero2 : (![0, 0] : Fin 2 → Nat) = fun _ => 0 := funext fun a => by fin_cases a <;> rfl
theorem zero1 : (![0] : Fin 1 → Nat) = fun _ => 0 := funext fun a => by fin_cases a; rfl

/-- At every grid point the feature block and the result block are the same block of rows, in block column 0; the
    weight and bias blocks are the whole arrays; the block row is below ten. -/
theorem block_indices : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 1) = 0 ∧ win0_3.index t (0 : Fin 2) ≤ 9 :=
  (by decide +kernel : ∀ t : Fin grid0.N, _)

/-- Every block of rows is some point's. -/
theorem block_onto : ∀ q0 : Fin 10, ∃ t : Fin cfg0.N, win0_3.index t = ![q0.val, 0] :=
  (by decide +kernel : ∀ q0 : Fin 10, ∃ t : Fin grid0.N, win0_3.index t = ![q0.val, 0])

variable (V : (c : Dev nD) → (b : Ref sig .tc) → Buf (Elt Ideal) ((c : Thread nD τ).loc b))

/-- What point t writes back is block t of the affine map of the feature rows. -/
theorem flushed_eq (c : Dev nD) (t : Fin cfg0.N) :
    (dat0 (F := Ideal) V c).flushed 3 t
      = ((cfg0.win 3).blk t).view.read (Elt Ideal) (Cert.Spec.lin (V c main_arg0) (V c main_v0) (V c main_arg6)) := by
  show (cfg0.win 3).cut (grid0.coords t) ((dat0 V c).after 3 t) = _
  rw [after0_3]
  unfold out0_3
  rw [View.canon_unit_zero zero2]
  simp only [View.ld_unit_zero (S := S5000x128) zero2, View.ld_unit_zero (S := S128x128) zero2, View.ld_unit_zero (S := S128) zero1]
  obtain ⟨e0, e1, e2, e3, e4, e5, e6⟩ := block_indices t
  funext j
  show Gen.k0_pay1 (F := Ideal) (iblk0 V c 0 t) (iblk0 V c 1 t) (iblk0 V c 2 t) j
    = Cert.Spec.lin (V c main_arg0) (V c main_v0) (V c main_arg6) (((cfg0.win 3).blk t).view.emb j)
  refine (stored_at (iblk0 V c 0 t) (iblk0 V c 1 t) (iblk0 V c 2 t) j).trans ?_
  unfold Cert.Spec.lin
  have hj0 : (j 0).val < 5000 := (j 0).isLt
  have hj1 : (j 1).val < 128 := (j 1).isLt
  have hrow : ((((cfg0.win 3).blk t).view.emb j) 0).val = win0_3.index t (0 : Fin 2) * 5000 + 1 * (j 0).val := rfl
  have hcol : ((((cfg0.win 3).blk t).view.emb j) 1).val = win0_3.index t (1 : Fin 2) * 128 + 1 * (j 1).val := rfl
  have hx : ∀ k : Fin 128, iblk0 V c 0 t (ix2 (⟨(j 0).val, (j 0).isLt⟩ : Fin 5000) k)
      = V c main_arg0 (ix2 (Cert.Spec.rowOf (((cfg0.win 3).blk t).view.emb j)) k) := by
    intro k
    show V c main_arg0 (((cfg0.win 0).blk t).view.emb (ix2 (⟨(j 0).val, (j 0).isLt⟩ : Fin 5000) k)) = _
    have h : ((cfg0.win 0).blk t).view.emb (ix2 (⟨(j 0).val, (j 0).isLt⟩ : Fin 5000) k)
        = ix2 (Cert.Spec.rowOf (((cfg0.win 3).blk t).view.emb j)) k := by
      funext a; apply Fin.ext
      match a with
      | ⟨0, _⟩ => show win0_0.index t (0 : Fin 2) * 5000 + 1 * (j 0).val = ((((cfg0.win 3).blk t).view.emb j) 0).val; rw [hrow]; omega
      | ⟨1, _⟩ => show win0_0.index t (1 : Fin 2) * 128 + 1 * k.val = k.val; omega
    rw [h]
  have hw : ∀ k : Fin 128, iblk0 V c 1 t (ix2 k (⟨(j 1).val, (j 1).isLt⟩ : Fin 128))
      = V c main_v0 (ix2 k (Cert.Spec.colOf (((cfg0.win 3).blk t).view.emb j))) := by
    intro k
    show V c main_v0 (((cfg0.win 1).blk t).view.emb (ix2 k (⟨(j 1).val, (j 1).isLt⟩ : Fin 128))) = _
    have h : ((cfg0.win 1).blk t).view.emb (ix2 k (⟨(j 1).val, (j 1).isLt⟩ : Fin 128))
        = ix2 k (Cert.Spec.colOf (((cfg0.win 3).blk t).view.emb j)) := by
      funext a; apply Fin.ext
      match a with
      | ⟨0, _⟩ => show win0_1.index t (0 : Fin 2) * 128 + 1 * k.val = k.val; omega
      | ⟨1, _⟩ => show win0_1.index t (1 : Fin 2) * 128 + 1 * (j 1).val = ((((cfg0.win 3).blk t).view.emb j) 1).val; rw [hcol]; omega
    rw [h]
  have hb : iblk0 V c 2 t (ix1 (⟨(j 1).val, (j 1).isLt⟩ : Fin 128))
      = V c main_arg6 (ix1 (Cert.Spec.colOf (((cfg0.win 3).blk t).view.emb j))) := by
    show V c main_arg6 (((cfg0.win 2).blk t).view.emb (ix1 (⟨(j 1).val, (j 1).isLt⟩ : Fin 128))) = _
    have h : ((cfg0.win 2).blk t).view.emb (ix1 (⟨(j 1).val, (j 1).isLt⟩ : Fin 128))
        = ix1 (Cert.Spec.colOf (((cfg0.win 3).blk t).view.emb j)) := by
      funext a; apply Fin.ext
      match a with
      | ⟨0, _⟩ => show win0_2.index t (0 : Fin 1) * 128 + 1 * (j 1).val = ((((cfg0.win 3).blk t).view.emb j) 1).val; rw [hcol]; omega
    rw [h]
  rw [hb]
  refine congrArg (· + _) ?_
  exact Finset.sum_congr rfl fun k _ => by rw [hx k, hw k]

/-- An index of the result array is in point t's block iff each coordinate is in the block's range on its axis. -/
theorem mem_block (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v1).slice (win0_3.rect t)).set ↔ _
  rw [View.set_slice_whole, Rect.mem_set_unit]
  exact Iff.rfl

/-- Row r lies in the block of point r / 5000. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := block_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The result array after the region: the affine map of every feature row. -/
theorem final (c : Dev nD) :
    (dat0 (F := Ideal) V c).arrAt 3 cfg0.N = Cert.Spec.lin (V c main_arg0) (V c main_v0) (V c main_arg6) :=
  (dat0 (F := Ideal) V c).arrAt_eq_of_cover 3 _ (fun t _ => flushed_eq V c t) covered

end Cert.KernelIdeal.LinRegion

end
-- ==== Proof.KernelHost.lean ====
/-
  What the idealized kernel's two regions are entered with, as functions of the launch memory.

  Before the first region the host transposes the weight matrix; nothing else is written, so the region finds the
  features, the transposed weights and the bias. Between the regions the host wraps negative edge sources by N, gathers
  the rows of the first region's result at the edge sources, scales row e by the edge weight e, sums the scaled rows
  into their destination nodes (the summed messages), sums a one per edge into its destination node (the degree) and
  lays the degree out as a column. The second region finds those two arrays beside the per-node coefficients and the
  features, which no step has written.
-/
import proofs.«147208_j14568529068220_2_alg».proof.Proof.Gen.KernelIdeal.Frame
import proofs.«147208_j14568529068220_2_alg».proof.Proof.Spec
import proofs.«147208_j14568529068220_2_alg».proof.Proof.LinRegion
import Idealize.ShloMosaic.Lib.StableHlo.Run
import Idealize.ShloMosaic.Lib.Pipeline.Value
import Idealize.ShloMosaic.Lib.ValueIdx

set_option maxRecDepth 16384

noncomputable section

namespace Cert.KernelIdeal.Between

open Cert.KernelIdeal Cert.KernelIdeal.Gen Idealize.ShloMosaic Idealize.ShloMosaic.ValueIdx Idealize.ShloMosaic.TcCoe
open Idealize.SL.Sem Idealize.ShloMosaic.Pipeline Idealize.ShloMosaic.StableHlo

/-! ## The host's steps between the regions, as functions -/

/-- The edge sources as the gather takes them: a negative number wrapped by N, the vector laid out as a column. -/
def srcColumn (src : IVec S640000 32) : IVec S640000x1 32 :=
  broadcastInDim S640000x1 ![0] bcast_S640000_S640000x1_0
    (select (cmpi .slt src (broadcastInDim S640000 ![] bcast_S_S640000 (constantI S_ 32 0#32)))
      (addi src (broadcastInDim S640000 ![] bcast_S_S640000 (constantI S_ 32 50000#32))) src)

/-- Row e of the messages: the edge weight e times the row of h that edge e's source names. -/
def weighted (h : FVec Ideal S50000x128 .f32) (src : IVec S640000 32)
    (e : FVec Ideal S640000 .f32) : FVec Ideal S640000x128 .f32 :=
  mulf (broadcastInDim S640000x128 ![0, 1] bcast_S640000x1_S640000x128_0_1 (broadcastInDim S640000x1 ![0] bcast_S640000_S640000x1_0 e))
    (Host.gather gather_S50000x128_S640000x1_S640000x128_1_0_n_n_0_1_1128 h (srcColumn src))

/-- The messages summed into their destination nodes, from zero. -/
def summed (msg : FVec Ideal S640000x128 .f32) (dst : IVec S640000 32) :
    FVec Ideal S50000x128 .f32 :=
  Host.scatterAdd scatter_S50000x128_S640000x1_S640000x128_1_0_0_1 (broadcastInDim S50000x128 ![] bcast_S_S50000x128 (constant (F := Ideal) S_ .f32 0x00000000#32))
    (broadcastInDim S640000x1 ![0] bcast_S640000_S640000x1_0 dst) msg

/-- The number of edges into each node: a one per edge summed into its destination, from zero. -/
def degree (dst : IVec S640000 32) : FVec Ideal S50000 .f32 :=
  Host.scatterAdd scatter_S50000_S640000x1_S640000_n_0_0_1 (broadcastInDim S50000 ![] bcast_S_S50000 (constant (F := Ideal) S_ .f32 0x00000000#32))
    (broadcastInDim S640000x1 ![0] bcast_S640000_S640000x1_0 dst)
    (broadcastInDim S640000 ![] bcast_S_S640000 (constant (F := Ideal) S_ .f32 0x3F800000#32))

/-- A vector of length N laid out as an N × 1 column is read at (r, 0) where the vector is read at r. -/
theorem column_apply (d : FVec Ideal S50000 .f32) (r : Fin 50000) :
    shapeCast S50000x1 d shapeCasts_S50000_S50000x1 (ix2 r (0 : Fin 1)) = d (ix1 r) :=
  shapeCast_apply d _ _ _ (by
    rw [Shape.rowMajor_val_two, Shape.rowMajor_val_one]
    show r.val = r.val * 1 + 0
    omega)

variable (m : (ℓ : Loc nD τ sig) → Buf (Elt Ideal) ℓ) (ρ : Dev nD → PrngReg) (c : Dev nD)

/-! ## Entering the first region -/

theorem first_weights : V1 m ρ c main_v0 = transpose S128x128 [1, 0] (m ((c : Thread nD τ).loc main_arg5)) transposes_S128x128_S128x128_1_0 := by
  show StableHlo.after hostOps0 (W0 m ρ c) (Proc.devRef .tc main_v0) = _
  after_results
theorem first_features : V1 m ρ c main_arg0 = (m ((c : Thread nD τ).loc main_arg0)) := by
  show StableHlo.after hostOps0 (W0 m ρ c) (Proc.devRef .tc main_arg0) = _
  after_results
theorem first_bias : V1 m ρ c main_arg6 = (m ((c : Thread nD τ).loc main_arg6)) := by
  show StableHlo.after hostOps0 (W0 m ρ c) (Proc.devRef .tc main_arg6) = _
  after_results
theorem first_src : W1 m ρ c (Proc.devRef .tc main_arg2) = (m ((c : Thread nD τ).loc main_arg2)) := by
  show StableHlo.after hostOps0 (W0 m ρ c) (Proc.devRef .tc main_arg2) = _
  after_results
theorem first_dst : W1 m ρ c (Proc.devRef .tc main_arg3) = (m ((c : Thread nD τ).loc main_arg3)) := by
  show StableHlo.after hostOps0 (W0 m ρ c) (Proc.devRef .tc main_arg3) = _
  after_results
theorem first_edge : W1 m ρ c (Proc.devRef .tc main_arg4) = (m ((c : Thread nD τ).loc main_arg4)) := by
  show StableHlo.after hostOps0 (W0 m ρ c) (Proc.devRef .tc main_arg4) = _
  after_results

/-! ## Leaving the first region -/

/-- The first region leaves the affine map of every feature row. -/
theorem lin_out : W2 m ρ c (Proc.devRef .tc main_v1)
    = Cert.Spec.lin (m ((c : Thread nD τ).loc main_arg0)) (transpose S128x128 [1, 0] (m ((c : Thread nD τ).loc main_arg5)) transposes_S128x128_S128x128_1_0) (m ((c : Thread nD τ).loc main_arg6)) := by
  rw [show W2 m ρ c (Proc.devRef .tc main_v1) = (dat0 (V1 m ρ) c).arrAt 3 cfg0.N from W2_arr m ρ c 3,
    LinRegion.final (V1 m ρ) c, first_features, first_weights, first_bias]

theorem mid_src : W2 m ρ c (Proc.devRef .tc main_arg2) = (m ((c : Thread nD τ).loc main_arg2)) :=
  (W2_of_ne m ρ c main_arg2 (by decide)).trans (first_src m ρ c)
theorem mid_dst : W2 m ρ c (Proc.devRef .tc main_arg3) = (m ((c : Thread nD τ).loc main_arg3)) :=
  (W2_of_ne m ρ c main_arg3 (by decide)).trans (first_dst m ρ c)
theorem mid_edge : W2 m ρ c (Proc.devRef .tc main_arg4) = (m ((c : Thread nD τ).loc main_arg4)) :=
  (W2_of_ne m ρ c main_arg4 (by decide)).trans (first_edge m ρ c)

/-! ## Entering the second region -/

theorem second_summed : V3 m ρ c main_v14
    = summed (weighted (W2 m ρ c (Proc.devRef .tc main_v1)) (W2 m ρ c (Proc.devRef .tc main_arg2)) (W2 m ρ c (Proc.devRef .tc main_arg4)))
        (W2 m ρ c (Proc.devRef .tc main_arg3)) := by
  show StableHlo.after hostOps1 (W2 m ρ c) (Proc.devRef .tc main_v14) = _
  after_results_simp
  unfold summed weighted srcColumn
  rfl

theorem second_degree : V3 m ρ c main_v19
    = shapeCast S50000x1 (degree (W2 m ρ c (Proc.devRef .tc main_arg3))) shapeCasts_S50000_S50000x1 := by
  show StableHlo.after hostOps1 (W2 m ρ c) (Proc.devRef .tc main_v19) = _
  after_results_simp
  unfold degree
  rfl

theorem second_features : V3 m ρ c main_arg0 = (m ((c : Thread nD τ).loc main_arg0)) :=
  ((W4_arr m ρ c 3).trans (((dat1 (V3 m ρ) c).arrAt_in 3 rfl _).trans (A_eq1 (V3 m ρ) c 3))).symm.trans (W4_main_arg0 m ρ c)
theorem second_alpha : V3 m ρ c main_arg1 = (m ((c : Thread nD τ).loc main_arg1)) :=
  ((W4_arr m ρ c 2).trans (((dat1 (V3 m ρ) c).arrAt_in 2 rfl _).trans (A_eq1 (V3 m ρ) c 2))).symm.trans (W4_main_arg1 m ρ c)

/-- The summed messages the second region finds, from the launch memory. -/
theorem second_summed_launch : V3 m ρ c main_v14
    = summed (weighted (Cert.Spec.lin (m ((c : Thread nD τ).loc main_arg0)) (transpose S128x128 [1, 0] (m ((c : Thread nD τ).loc main_arg5)) transposes_S128x128_S128x128_1_0) (m ((c : Thread nD τ).loc main_arg6)))
        (m ((c : Thread nD τ).loc main_arg2)) (m ((c : Thread nD τ).loc main_arg4))) (m ((c : Thread nD τ).loc main_arg3)) := by
  rw [second_summed, lin_out, mid_src, mid_dst, mid_edge]

/-- The degree column the second region finds, from the launch memory. -/
theorem second_degree_launch : V3 m ρ c main_v19
    = shapeCast S50000x1 (degree (m ((c : Thread nD τ).loc main_arg3))) shapeCasts_S50000_S50000x1 := by
  rw [second_degree, mid_dst]

end Cert.KernelIdeal.Between

end
-- ==== Proof.NodeRegion.lean ====
/-
  The second grid region as one function of whole arrays.

  The region walks ten grid points; point t holds rows 5000·t … 5000·t + 4999 of five arrays: the summed messages
  (N × D), the degree column (N × 1), the alpha column (N × 1), the features (N × D) and the output (N × D). On its
  block it computes, entry (p, q),  max (s[p, q] / max dg[p, 0] 1) 0 + al[p, 0] · x[p, q].  Since every input block sits at
  the output block's rows, the block written back at point t is block t of the node stage of the four whole arrays, and
  the ten blocks cover all 50000 rows: so the output array after the region is the node stage itself.
-/
import proofs.«147208_j14568529068220_2_alg».proof.Proof.Gen.KernelIdeal.Frame
import proofs.«147208_j14568529068220_2_alg».proof.Proof.Spec
import Idealize.ShloMosaic.Lib.Pipeline.Value
import Idealize.ShloMosaic.Lib.ValueIdx
import Idealize.ShloMosaic.Lib.ValueLayout

noncomputable section

namespace Cert.KernelIdeal.NodeRegion

open Cert.KernelIdeal Cert.KernelIdeal.Gen Idealize.ShloMosaic Idealize.ShloMosaic.ValueIdx Idealize.ShloMosaic.TcCoe Idealize.SL.Sem
open Idealize.ShloMosaic.Pipeline (Dat)

/-- A column of 5000 entries repeated along 128 lanes: entry (p, q) of the result is entry (p, 0) of the column. -/
theorem column_lanes_apply {α : Type} (v : S5000x1.Idx → α) (h : S5000x1.Broadcasts S5000x128) (p : Fin 5000) (q : Fin 128) :
    broadcastTo S5000x128 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The block's arithmetic at entry (p, q): the message sum over the clamped degree, clamped below at zero, plus
    alpha of the row times the feature. -/
theorem payload_apply (x1 : Vec Ideal S5000x1 .f32) (x0 : Vec Ideal S5000x128 .f32) (x2 : Vec Ideal S5000x1 .f32)
    (x3 : Vec Ideal S5000x128 .f32) (p : Fin 5000) (q : Fin 128) :
    Gen.k1_pay1 x1 x0 x2 x3 (ix2 p q)
      = max (Ideal.div (x0 (ix2 p q)) (max (x1 (ix2 p (0 : Fin 1))) (Ideal.ofBits .f32 0x3F800000#32))) (Ideal.ofBits .f32 0x00000000#32)
        + x2 (ix2 p (0 : Fin 1)) * x3 (ix2 p q) := by
  unfold Gen.k1_pay1
  simp only [shapeCast_self, addf_apply, maximumf_apply, divf_apply, mulf_apply, column_lanes_apply, broadcast_apply]
  rfl

/-- The node stage at entry i, written over four reads: the two N × D arrays at indices equal to i, the two columns at
    indices equal to (row of i, 0). -/
theorem nodeCol_of_reads (s : FVec Ideal S50000x128 .f32) (dg al : FVec Ideal S50000x1 .f32) (x : FVec Ideal S50000x128 .f32)
    (i0 i3 i : S50000x128.Idx) (i1 i2 : S50000x1.Idx) (h0 : i0 = i) (h3 : i3 = i)
    (h1 : i1 = ix2 (Cert.Spec.rowOf i) (0 : Fin 1)) (h2 : i2 = ix2 (Cert.Spec.rowOf i) (0 : Fin 1)) :
    max (Ideal.div (s i0) (max (dg i1) (Ideal.ofBits .f32 0x3F800000#32))) (Ideal.ofBits .f32 0x00000000#32) + al i2 * x i3
      = Cert.Spec.nodeCol s dg al x i := by
  subst h0 h3 h1 h2; rfl

/-! ## The block row of every window follows the grid point -/

theorem zero_offsets : (![0, 0] : Fin 2 → Nat) = fun _ => 0 := funext fun a => by fin_cases a <;> rfl

/-- At every grid point the four input windows sit at the output window's block row, every block column is 0, and
    the block row is at most 9. -/
theorem block_rows : ∀ t : Fin cfg1.N,
    win1_0.index t (0 : Fin 2) = win1_4.index t (0 : Fin 2) ∧ win1_0.index t (1 : Fin 2) = win1_4.index t (1 : Fin 2)
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 2) = win1_4.index t (0 : Fin 2) ∧ win1_3.index t (1 : Fin 2) = win1_4.index t (1 : Fin 2)
    ∧ win1_4.index t (0 : Fin 2) ≤ 9 ∧ win1_4.index t (1 : Fin 2) = 0 :=
  (by decide +kernel : ∀ t : Fin grid1.N, _)

/-- Every one of the ten block rows is some grid point's. -/
theorem block_rows_onto : ∀ q0 : Fin 10, ∃ t : Fin cfg1.N, win1_4.index t = ![q0.val, 0] :=
  (by decide +kernel : ∀ q0 : Fin 10, ∃ t : Fin grid1.N, win1_4.index t = ![q0.val, 0])

/-! ## What a grid point writes back -/

variable (V : (c : Dev nD) → (b : Ref sig .tc) → Buf (Elt Ideal) ((c : Thread nD τ).loc b))

/-- The block a grid point writes back is that block of the node stage of the four whole arrays: every input block is
    read at the rows the output block covers, the two columns at lane 0. -/
theorem flushed_eq (c : Dev nD) (t : Fin cfg1.N) :
    (Gen.dat1 (F := Ideal) V c).flushed 4 t
      = ((cfg1.win 4).blk t).view.read (Elt Ideal)
          (Cert.Spec.nodeCol (V c main_v14) (V c main_v19) (V c main_arg1) (V c main_arg0)) := by
  show (cfg1.win 4).cut (grid1.coords t) ((dat1 V c).after 4 t) = _
  rw [after1_4]
  unfold out1_4
  rw [View.canon_unit_zero zero_offsets]
  simp only [View.ld_unit_zero (S := S5000x128) zero_offsets, View.ld_unit_zero (S := S5000x1) zero_offsets]
  obtain ⟨e00, e01, e10, e11, e20, e21, e30, e31, e40, e41⟩ := block_rows t
  funext j
  obtain ⟨p, q, rfl⟩ : ∃ (p : Fin 5000) (q : Fin 128), j = ix2 p q := ⟨j 0, j 1, eq_ix2 j⟩
  refine (payload_apply _ _ _ _ p q).trans ?_
  have h0 : ((cfg1.win 0).blk t).view.emb (ix2 p q) = ((cfg1.win 4).blk t).view.emb (ix2 p q) := by
    funext a; apply Fin.ext
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * q.val = win1_4.index t (1 : Fin 2) * 128 + 1 * q.val; omega
  have h3 : ((cfg1.win 3).blk t).view.emb (ix2 p q) = ((cfg1.win 4).blk t).view.emb (ix2 p q) := by
    funext a; apply Fin.ext
    match a with
    | ⟨0, _⟩ => show win1_3.index t (0 : Fin 2) * 5000 + 1 * p.val = win1_4.index t (0 : Fin 2) * 5000 + 1 * p.val; omega
    | ⟨1, _⟩ => show win1_3.index t (1 : Fin 2) * 128 + 1 * q.val = win1_4.index t (1 : Fin 2) * 128 + 1 * q.val; omega
  have h1 : ((cfg1.win 1).blk t).view.emb (ix2 p (0 : Fin 1))
      = ix2 (Cert.Spec.rowOf (((cfg1.win 4).blk t).view.emb (ix2 p q))) (0 : Fin 1) := by
    funext a; apply Fin.ext
    match a with
    | ⟨0, _⟩ => show win1_1.index t (0 : Fin 2) * 5000 + 1 * p.val = win1_4.index t (0 : Fin 2) * 5000 + 1 * p.val; omega
    | ⟨1, _⟩ => show win1_1.index t (1 : Fin 2) * 1 + 1 * 0 = 0; omega
  have h2 : ((cfg1.win 2).blk t).view.emb (ix2 p (0 : Fin 1))
      = ix2 (Cert.Spec.rowOf (((cfg1.win 4).blk t).view.emb (ix2 p q))) (0 : Fin 1) := by
    funext a; apply Fin.ext
    match a with
    | ⟨0, _⟩ => show win1_2.index t (0 : Fin 2) * 5000 + 1 * p.val = win1_4.index t (0 : Fin 2) * 5000 + 1 * p.val; omega
    | ⟨1, _⟩ => show win1_2.index t (1 : Fin 2) * 1 + 1 * 0 = 0; omega
  exact nodeCol_of_reads (V c main_v14) (V c main_v19) (V c main_arg1) (V c main_arg0) _ _ _ _ _ h0 h3 h1 h2

/-! ## The ten blocks cover the array -/

/-- An entry lies in a grid point's output block iff each coordinate lies in the block's range on its axis. -/
theorem mem_block (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v20).slice (win1_4.rect t)).set ↔ _
  rw [View.set_slice_whole, Rect.mem_set_unit]
  exact Iff.rfl

/-- Row r lies in the block of the grid point whose block row is r / 5000. -/
theorem covered (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := block_rows_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_block]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 128 ≤ (i 1).val ∧ (i 1).val < win1_4.index t (1 : Fin 2) * 128 + 128
    omega

/-! ## The array after the region -/

/-- After the ten grid points the output array is the node stage of the four arrays the region was entered with. -/
theorem final (c : Dev nD) :
    (Gen.dat1 (F := Ideal) V c).arrAt 4 cfg1.N
      = Cert.Spec.nodeCol (V c main_v14) (V c main_v19) (V c main_arg1) (V c main_arg0) :=
  (Gen.dat1 (F := Ideal) V c).arrAt_eq_of_cover 4
    (Cert.Spec.nodeCol (V c main_v14) (V c main_v19) (V c main_arg1) (V c main_arg0))
    (fun t _ => flushed_eq V c t) covered

end Cert.KernelIdeal.NodeRegion

end
-- ==== Proof.KernelValue.lean ====
/-
  The idealized kernel's result as one function of its seven arguments.

  The layer: every node row goes through the affine map; each edge's message is its weight times the mapped row of its
  source node; the messages are summed into their destination nodes and divided by the destination's degree (at least
  one); the quotient is clipped below at zero and the node's own features, scaled by the node's coefficient, are added.
  The first region computes the affine map, the host the messages, their sums and the degrees, the second region the
  rest; the run leaves exactly that in the result array and the arguments as they were.
-/
import proofs.«147208_j14568529068220_2_alg».proof.Proof.KernelRun
import proofs.«147208_j14568529068220_2_alg».proof.Proof.KernelHost
import proofs.«147208_j14568529068220_2_alg».proof.Proof.NodeRegion

set_option maxRecDepth 16384

noncomputable section

namespace Cert.KernelIdeal.Whole

open Cert.KernelIdeal Cert.KernelIdeal.Gen Idealize.ShloMosaic Idealize.ShloMosaic.ValueIdx Idealize.ShloMosaic.TcCoe
open Idealize.SL.Sem

/-- The layer as one function of the arguments: features, per-node coefficients, edge sources, edge destinations,
    edge weights, the weight matrix, the bias. -/
def layer (x0 : FVec Ideal S50000x128 .f32) (x1 : FVec Ideal S50000x1 .f32) (x2 x3 : IVec S640000 32)
    (x4 : FVec Ideal S640000 .f32) (x5 : FVec Ideal S128x128 .f32) (x6 : FVec Ideal S128 .f32) : FVec Ideal S50000x128 .f32 :=
  Cert.Spec.node
    (Between.summed (Between.weighted (Cert.Spec.lin x0 (transpose S128x128 [1, 0] x5 transposes_S128x128_S128x128_1_0) x6) x2 x4) x3)
    (Between.degree x3) x1 x0

variable (m : (ℓ : Loc nD τ sig) → Buf (Elt Ideal) ℓ) (ρ : Dev nD → PrngReg)

/-- The result array at the end of the run is the layer of the launch contents of the arguments. -/
theorem result (c : Dev nD) : W4 m ρ c (Proc.devRef .tc main_v20)
    = layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [show W4 m ρ c (Proc.devRef .tc main_v20) = (dat1 (V3 m ρ) c).arrAt 4 cfg1.N from W4_arr m ρ c 4,
    NodeRegion.final (V3 m ρ) c, Between.second_summed_launch, Between.second_degree_launch, Between.second_alpha,
    Between.second_features]
  exact Cert.Spec.nodeCol_eq_node _ _ _ _ _ (fun r => Between.column_apply _ r)

/-- Every weakly fair execution terminates with the result array at the layer of the arguments and the arguments
    unchanged. -/
theorem run : θ_run defs (onTc (τ := τ) (main (F := Ideal))) ⟨m, fun _ => 0, ρ⟩ (fun r => ∀ c : Dev nD,
      r.2.mem ((c.tc : Thread nD τ).loc main_v20)
        = layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result m ρ c), (h c).2⟩) (Named.run_named m ρ)

end Cert.KernelIdeal.Whole

end
-- ==== Proof.RefValue.lean ====
/-
  The reference program read index by index, in the terms of the specification.

  Two statements. The edge messages before weighting: the program gathers the feature rows first and applies the
  affine map to every gathered row; this equals gathering the rows of the affine image of every node row, because
  a gather of rows reads result element (e, c) from operand element (row e, c) and the affine map acts on each
  row separately. The result: per node row r and column c,
  max (summed[r, c] / max deg[r] 1) 0 + alpha[r, 0] · feat[r, c], the two scatter sums left as they are.
-/
import proofs.«147208_j14568529068220_2_alg».proof.Proof.Gen.ReferenceIdeal.Read
import proofs.«147208_j14568529068220_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-! ## Index equations -/

/-- The left operand of the product, at result element (e, c) and summation index k, is read at (e, k). -/
theorem lidx_ix2 (e : Fin 640000) (c k : Fin 128) : lidx_main_v11 (ix2 e c) k = ix2 e k :=
  funext fun a => Fin.ext (by match a with | ⟨0, _⟩ => rfl | ⟨1, _⟩ => rfl)

/-- The right operand of the product, at result element (e, c) and summation index k, is read at (k, c). -/
theorem ridx_ix2 (e : Fin 640000) (c k : Fin 128) : ridx_main_v11 (ix2 e c) k = ix2 k c :=
  funext fun a => Fin.ext (by match a with | ⟨0, _⟩ => rfl | ⟨1, _⟩ => rfl)

/-- The bias, laid out as a row and repeated down the edges, is read at the column. -/
theorem bias_idx (e : Fin 640000) (c : Fin 128) : idx_main_v12 (idx_main_v13 (ix2 e c)) = ix1 c :=
  funext fun a => Fin.ext (by match a with | ⟨0, _⟩ => rfl)

/-- The degree, laid out as a column and repeated along the rows, is read at the row. -/
theorem deg_idx (i : S50000x128.Idx) : idx_main_v26 (idx_main_v27 i) = ix1 (Cert.Spec.rowOf i) :=
  funext fun a => Fin.ext (by match a with | ⟨0, _⟩ => rfl)

/-- The per-node coefficient, repeated along the rows, is read at (row, 0). -/
theorem alpha_idx (i : S50000x128.Idx) : idx_main_v0 i = ix2 (Cert.Spec.rowOf i) (0 : Fin 1) :=
  funext fun a => Fin.ext (by match a with | ⟨0, _⟩ => rfl | ⟨1, _⟩ => rfl)

/-! ## The edge messages before weighting -/

theorem msg_eq (x0 : (⟨S50000x128, .f32⟩ : BufTy).Contents (Elt Ideal)) (x2 : (⟨S640000, .i32⟩ : BufTy).Contents (Elt Ideal))
    (x5 : (⟨S128x128, .f32⟩ : BufTy).Contents (Elt Ideal)) (x6 : (⟨S128, .f32⟩ : BufTy).Contents (Elt Ideal)) :
    val_main_v14 (F := Ideal) x0 x2 x5 x6
      = Host.gather gather_S50000x128_S640000x1_S640000x128_1_0_n_n_0_1_1128
          (Cert.Spec.lin x0 (val_main_v10 (F := Ideal) x5) x6) (val_main_v7 (F := Ideal) x2) := by
  funext j
  obtain ⟨e, c, rfl⟩ : ∃ (e : Fin 640000) (c : Fin 128), j = ix2 e c := ⟨j 0, j 1, eq_ix2 j⟩
  rw [val_main_v14_apply, val_main_v11_apply, val_main_v13_apply, val_main_v12_apply, Ideal.addf_def, bias_idx]
  -- the right side: the gathered affine image at (e, c) is the affine image at (row e, c)
  refine Eq.trans ?_ (Cert.Spec.gather_rows_apply Facts₀.gather_S50000x128_S640000x1_S640000x128_1_0_n_n_0_1_1128_wf
    (val_main_v7 (F := Ideal) x2) (Cert.Spec.lin x0 (val_main_v10 (F := Ideal) x5) x6) e c).symm
  unfold Cert.Spec.lin
  refine congrArg₂ (· + ·) (Finset.sum_congr rfl fun k _ => ?_) rfl
  -- the left side, term k: the gathered features at (e, k) are the features at (row e, k)
  rw [lidx_ix2, ridx_ix2]
  exact congrArg (· * _) (Cert.Spec.gather_rows_apply Facts₀.gather_S50000x128_S640000x1_S640000x128_1_0_n_n_0_1_1128_wf
    (val_main_v7 (F := Ideal) x2) x0 e k)

/-! ## The result -/

theorem out_eq (x0 : (⟨S50000x128, .f32⟩ : BufTy).Contents (Elt Ideal)) (x1 : (⟨S50000x1, .f32⟩ : BufTy).Contents (Elt Ideal))
    (x2 x3 : (⟨S640000, .i32⟩ : BufTy).Contents (Elt Ideal)) (x4 : (⟨S640000, .f32⟩ : BufTy).Contents (Elt Ideal))
    (x5 : (⟨S128x128, .f32⟩ : BufTy).Contents (Elt Ideal)) (x6 : (⟨S128, .f32⟩ : BufTy).Contents (Elt Ideal)) :
    val_main_v30 (F := Ideal) x0 x1 x2 x3 x4 x5 x6
      = Cert.Spec.node (val_main_v19 (F := Ideal) x0 x2 x3 x4 x5 x6) (val_main_v23 (F := Ideal) x3) x1 x0 := by
  funext i
  rw [val_main_v30_apply, val_main_v29_apply, val_main_v28_apply, val_main_v27_apply, val_main_v26_apply, val_main_v25_apply,
    val_main_v24_apply, val_main_cst_3_apply, val_main_call0_v0_apply, val_main_call0_cst_apply, val_main_v1_apply,
    val_main_v0_apply, deg_idx, alpha_idx]
  unfold Cert.Spec.node
  rfl

end Cert.ReferenceIdeal.RefValue

end
-- ==== Proof.Bridge.lean ====
/-
  The two programs' host computations are the same functions of the arguments.

  Both programs sum weighted edge messages into their destination nodes and count the edges into each node, by the same
  operations with the same dimension numbers. They differ in one place only: the reference gathers the feature rows at
  the edge sources and applies the affine map to each gathered row, where the kernel applies the affine map to every
  node row first and gathers rows of the result. Gathering rows commutes with a map that acts on each row separately,
  so the messages, and with them the sums, are equal.
-/
import proofs.«147208_j14568529068220_2_alg».proof.Proof.RefValue
import proofs.«147208_j14568529068220_2_alg».proof.Proof.KernelHost

set_option maxRecDepth 16384

noncomputable section

namespace Cert.Proof.Bridge

open Idealize.ShloMosaic Idealize.ShloMosaic.ValueIdx

/-- The reference's summed messages are the kernel's host function of the affine image of the feature rows. -/
theorem summed_eq (x0 : FVec Ideal Cert.Spec.SNxD .f32) (x2 x3 : IVec Cert.KernelIdeal.S640000 32)
    (x4 : FVec Ideal Cert.KernelIdeal.S640000 .f32) (x5 : FVec Ideal Cert.Spec.SDxD .f32) (x6 : FVec Ideal Cert.Spec.SD .f32) :
    Cert.ReferenceIdeal.Read.val_main_v19 (F := Ideal) x0 x2 x3 x4 x5 x6
      = Cert.KernelIdeal.Between.summed (Cert.KernelIdeal.Between.weighted
          (Cert.Spec.lin x0 (transpose Cert.KernelIdeal.S128x128 [1, 0] x5 Cert.KernelIdeal.Facts₀.transposes_S128x128_S128x128_1_0) x6) x2 x4) x3 := by
  unfold Cert.ReferenceIdeal.Read.val_main_v19 Cert.ReferenceIdeal.Read.val_main_v16
  rw [Cert.ReferenceIdeal.RefValue.msg_eq]
  rfl

/-- The reference's degree is the kernel's. -/
theorem degree_eq (x3 : IVec Cert.KernelIdeal.S640000 32) :
    Cert.ReferenceIdeal.Read.val_main_v23 (F := Ideal) x3 = Cert.KernelIdeal.Between.degree x3 := rfl

end Cert.Proof.Bridge

end
-- ==== Proof.lean ====
/-
  The certificate of a graph layer on 50000 nodes, 128 features and 640000 edges.

  Both programs compute, per node row r and column c,
      max (S[r, c] / max deg[r] 1) 0 + alpha[r] · feat[r, c],
  where deg[r] counts the edges into node r and S sums, over the edges e into node r, the edge weight e times the
  affine image feat[src e] · Wᵀ + b of the source node's row. The kernel applies the affine map to all node rows in a
  first grid region, lets the host gather, weight and sum the rows, and finishes in a second grid region; the reference
  gathers the feature rows first and applies the affine map edge by edge. Over the extended reals the two agree entry
  by entry with no algebra beyond reading both sides at an index: a gather of rows commutes with a map acting on each
  row separately, and everything after the gather is the same sequence of operations on equal operands. No finiteness
  of the inputs is used.

  The three frame claims: the two kernel programs by their frame runs, the reference by its run with the result
  dropped. The idealization rewrote nothing, so the preservation claim is trivial.
-/
import proofs.«147208_j14568529068220_2_alg».proof.Defs
import proofs.«147208_j14568529068220_2_alg».proof.Proof.Gen.Kernel
import proofs.«147208_j14568529068220_2_alg».proof.Proof.Gen.Kernel.Skeleton
import proofs.«147208_j14568529068220_2_alg».proof.Proof.Gen.Kernel.Launch
import proofs.«147208_j14568529068220_2_alg».proof.Proof.Gen.Kernel.Points
import proofs.«147208_j14568529068220_2_alg».proof.Proof.Gen.Kernel.Frame
import proofs.«147208_j14568529068220_2_alg».proof.Proof.Gen.KernelIdeal
import proofs.«147208_j14568529068220_2_alg».proof.Proof.Gen.KernelIdeal.Skeleton
import proofs.«147208_j14568529068220_2_alg».proof.Proof.Gen.KernelIdeal.Launch
import proofs.«147208_j14568529068220_2_alg».proof.Proof.Gen.KernelIdeal.Points
import proofs.«147208_j14568529068220_2_alg».proof.Proof.Gen.KernelIdeal.Frame
import proofs.«147208_j14568529068220_2_alg».proof.Proof.Gen.ReferenceIdeal
import proofs.«147208_j14568529068220_2_alg».proof.Proof.Gen.ReferenceIdeal.Run
import proofs.«147208_j14568529068220_2_alg».proof.Proof.Gen.ReferenceIdeal.Read
import proofs.«147208_j14568529068220_2_alg».proof.Proof.Gen.Pre_finite_inputs
import proofs.«147208_j14568529068220_2_alg».proof.Proof.KernelValue
import proofs.«147208_j14568529068220_2_alg».proof.Proof.Bridge
import Idealize.ShloMosaic.Adequacy
import Idealize.ShloMosaic.Init

set_option maxRecDepth 16384

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's result is the layer: its node stage by reading it at an index, its summed messages and degree by
    the bridge. -/
theorem layer_eq (x0 : FVec Ideal Cert.KernelIdeal.S50000x128 .f32) (x1 : FVec Ideal Cert.KernelIdeal.S50000x1 .f32)
    (x2 x3 : IVec Cert.KernelIdeal.S640000 32) (x4 : FVec Ideal Cert.KernelIdeal.S640000 .f32)
    (x5 : FVec Ideal Cert.KernelIdeal.S128x128 .f32) (x6 : FVec Ideal Cert.KernelIdeal.S128 .f32) :
    Cert.ReferenceIdeal.Read.val_main_v30 (F := Ideal) x0 x1 x2 x3 x4 x5 x6 = Cert.KernelIdeal.Whole.layer x0 x1 x2 x3 x4 x5 x6 := by
  rw [Cert.ReferenceIdeal.RefValue.out_eq, Bridge.summed_eq, Bridge.degree_eq]
  rfl

/-- Run from memories that agree on the arguments, the two idealized programs end with the same result array: the
    layer of the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [h0, h1, h2, h3, h4, h5, h6]
  exact (Cert.ReferenceIdeal.Read.val_main_v30_eq _ _ _ _ _ _ _).trans (layer_eq _ _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
